-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096 .f32) (main_arg3 : FVec F S4096x4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S64x4096 : Shape := ⟨2, ![64, 4096]⟩
abbrev S128x4096 : Shape := ⟨2, ![128, 4096]⟩

abbrev nBuf : Space → Nat
  | .hbm => 16
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .bf16⟩
  | .hbm, ⟨8, _⟩ => ⟨S1x4096, .f32⟩
  | .hbm, ⟨9, _⟩ => ⟨S8192x4096, .bf16⟩
  | .hbm, ⟨10, _⟩ => ⟨S4096x4096, .bf16⟩
  | .hbm, ⟨11, _⟩ => ⟨S1x4096, .f32⟩
  | .hbm, ⟨12, _⟩ => ⟨S8192x4096, .bf16⟩
  | .hbm, ⟨13, _⟩ => ⟨S4096x4096, .bf16⟩
  | .hbm, ⟨14, _⟩ => ⟨S1x4096, .f32⟩
  | .hbm, ⟨15, _⟩ => ⟨S8192x4096, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S1x4096, .f32⟩
  | .local _ .vmem, ⟨4, _⟩ => ⟨S64x4096, .bf16⟩
  | .local _ .vmem, ⟨5, _⟩ => ⟨S64x4096, .bf16⟩
  | .local _ .vmem, ⟨6, _⟩ => ⟨S128x4096, .bf16⟩
  | .local _ .vmem, ⟨7, _⟩ => ⟨S128x4096, .bf16⟩
  | .local _ .vmem, ⟨8, _⟩ => ⟨S4096x4096, .bf16⟩
  | .local _ .vmem, ⟨9, _⟩ => ⟨S1x4096, .f32⟩
  | .local _ .vmem, ⟨10, _⟩ => ⟨S128x4096, .bf16⟩
  | .local _ .vmem, ⟨11, _⟩ => ⟨S128x4096, .bf16⟩
  | .local _ .vmem, ⟨12, _⟩ => ⟨S128x4096, .bf16⟩
  | .local _ .vmem, ⟨13, _⟩ => ⟨S128x4096, .bf16⟩
  | .local _ .vmem, ⟨14, _⟩ => ⟨S4096x4096, .bf16⟩
  | .local _ .vmem, ⟨15, _⟩ => ⟨S1x4096, .f32⟩
  | .local _ .vmem, ⟨16, _⟩ => ⟨S128x4096, .f32⟩
  | .local _ .vmem, ⟨17, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S128x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S4096_S1x4096 : S4096.ShapeCasts S1x4096
  inb_S64x4096_S64x4096_0_0 : ∀ a, (![0, 0] : Fin 2 → Nat) a + S64x4096.size a ≤ S64x4096.size a
  h_S64x4096 : 0 < S64x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  packedbf16_S64x4096_S64x4096_0_0 : (Rect.unit (s := S64x4096) ![0, 0] S64x4096.size inb_S64x4096_S64x4096_0_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  broadcasts_S1x4096_S128x4096 : S1x4096.Broadcasts S128x4096
  packedbf16_S128x4096_S128x4096_0_0 : (Rect.unit (s := S128x4096) ![0, 0] S128x4096.size inb_S128x4096_S128x4096_0_0).PackedRows (EltTy.packing .bf16)
  dot_S64x4096_S4096x4096_S64x4096_1_1_0_0_n_n_wf : DotDims.WF S64x4096 S4096x4096 S64x4096 [1] [1] [0] [0] [] []
  dot_S128x4096_S4096x4096_S128x4096_1_1_0_0_n_n_wf : DotDims.WF S128x4096 S4096x4096 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S8192x4096.size a
  hwx0_0 : ∀ i : grid0.Coords, EltTy.bits .f32 = 32 ∨ (Rect.block (s := S8192x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S8192x4096.size a
  hwx0_3 : ∀ i : grid0.Coords, EltTy.bits .bf16 = 32 ∨ (Rect.block (s := S8192x4096) S64x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .bf16 = 32 ∨ (Rect.block (s := S8192x4096) S128x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S8192x4096.size a
  hwx1_3 : ∀ i : grid1.Coords, EltTy.bits .bf16 = 32 ∨ (Rect.block (s := S8192x4096) S128x4096.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x4096.size a ≤ S8192x4096.size a
  hwx2_0 : ∀ i : grid2.Coords, EltTy.bits .bf16 = 32 ∨ (Rect.block (s := S8192x4096) S128x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x4096.size a ≤ S4096x4096.size a
  hwx2_1 : ∀ i : grid2.Coords, EltTy.bits .bf16 = 32 ∨ (Rect.block (s := S4096x4096) S4096x4096.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x4096.size a
  hwx2_2 : ∀ i : grid2.Coords, EltTy.bits .f32 = 32 ∨ (Rect.block (s := S1x4096) S1x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x4096.size a ≤ S8192x4096.size a
  hwx2_3 : ∀ i : grid2.Coords, EltTy.bits .f32 = 32 ∨ (Rect.block (s := S8192x4096) S128x4096.size (cc2_transform_3 i) (hinb2_3 i)).WholeWords (EltTy.packing .f32)

variable [Facts₀]

def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf
def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf

abbrev win0_0 : Pipeline.Window sig grid0 :=
  Pipeline.Window.ofSpec (Memref.whole main_arg0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S128x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S4096x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S128x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S4096x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S4096x4096, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Dense.lean ====
/-
  One dense layer on the extended reals, index by index: entry (r, n) of x·wᵀ + b is
  Σ_k x(r,k)·w(n,k) + b(0,n), the weight matrix read by ROWS (no transpose is ever formed) and the bias
  kept as a one-row matrix. The rectified layer takes the maximum of that with the value of the zero word.
  Nothing here mentions a program: the kernel's blocks and the reference's whole arrays are both read
  against these two functions.
-/
import Idealize.ShloMosaic.PureOps.Ideal
import Idealize.ShloMosaic.Lib.ValueIdx

noncomputable section

namespace Cert.Dense

open Idealize.ShloMosaic Idealize.ShloMosaic.ValueIdx

/-- The affine layer x·wᵀ + b over R rows: entry (r, n) is Σ_k x(r,k)·w(n,k) + b(0,n). -/
def affine {R : Nat} (x : (⟨2, ![R, 4096]⟩ : Shape).Idx → EReal) (w : (⟨2, ![4096, 4096]⟩ : Shape).Idx → EReal)
    (b : (⟨2, ![1, 4096]⟩ : Shape).Idx → EReal) : (⟨2, ![R, 4096]⟩ : Shape).Idx → EReal :=
  fun i => (∑ k : Fin 4096, x (ix2 (⟨(i 0).val, (i 0).isLt⟩ : Fin R) k) * w (ix2 (⟨(i 1).val, (i 1).isLt⟩ : Fin 4096) k))
    + b (ix2 (0 : Fin 1) (⟨(i 1).val, (i 1).isLt⟩ : Fin 4096))

/-- The same entry with the index given by its coordinates. -/
theorem affine_ix2 {R : Nat} (x : (⟨2, ![R, 4096]⟩ : Shape).Idx → EReal) (w : (⟨2, ![4096, 4096]⟩ : Shape).Idx → EReal)
    (b : (⟨2, ![1, 4096]⟩ : Shape).Idx → EReal) (p : Fin R) (q : Fin 4096) :
    affine x w b (ix2 p q) = (∑ k : Fin 4096, x (ix2 p k) * w (ix2 q k)) + b (ix2 (0 : Fin 1) q) := rfl

/-- Rectification: the entrywise maximum with the value of the zero word. -/
def relu {R : Nat} (y : (⟨2, ![R, 4096]⟩ : Shape).Idx → EReal) : (⟨2, ![R, 4096]⟩ : Shape).Idx → EReal :=
  fun i => max (y i) (Ideal.ofBits .f32 0x00000000#32)

theorem relu_apply {R : Nat} (y : (⟨2, ![R, 4096]⟩ : Shape).Idx → EReal) (i : (⟨2, ![R, 4096]⟩ : Shape).Idx) :
    relu y i = max (y i) (Ideal.ofBits .f32 0x00000000#32) := rfl

/-- A bias vector seen as a one-row matrix. -/
def row (b : (⟨1, ![4096]⟩ : Shape).Idx → EReal) : (⟨2, ![1, 4096]⟩ : Shape).Idx → EReal :=
  fun i => b (ix1 (⟨(i 1).val, (i 1).isLt⟩ : Fin 4096))

theorem row_ix2 (b : (⟨1, ![4096]⟩ : Shape).Idx → EReal) (u : Fin 1) (q : Fin 4096) : row b (ix2 u q) = b (ix1 q) := rfl

/-- The three-layer perceptron: affine, rectified, affine, rectified, affine. -/
def mlp (x : (⟨2, ![8192, 4096]⟩ : Shape).Idx → EReal)
    (w0 : (⟨2, ![4096, 4096]⟩ : Shape).Idx → EReal) (b0 : (⟨1, ![4096]⟩ : Shape).Idx → EReal)
    (w1 : (⟨2, ![4096, 4096]⟩ : Shape).Idx → EReal) (b1 : (⟨1, ![4096]⟩ : Shape).Idx → EReal)
    (w2 : (⟨2, ![4096, 4096]⟩ : Shape).Idx → EReal) (b2 : (⟨1, ![4096]⟩ : Shape).Idx → EReal) :
    (⟨2, ![8192, 4096]⟩ : Shape).Idx → EReal :=
  affine (relu (affine (relu (affine x w0 (row b0))) w1 (row b1))) w2 (row b2)

end Cert.Dense

end
-- ==== Proof.Run.lean ====
/-
  The kernel program's run with its RESULT named. The program is three row-blocked layers in sequence, each
  preceded by two host operations (the weight's change of format and the bias seen as a one-row matrix).
  Every weakly fair execution terminates without a fault; the argument arrays end as launched; and the
  result array ends at the contents the third layer's write-backs leave, in the fold of buffer contents
  through the program: launch, host operations, first layer, host operations, second layer, host operations,
  third layer. The frame statement keeps only the arguments from that last state; here the result buffer is
  read off the same state as well.
-/
import proofs.«108455_j7619271983254_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents of its buffer, and every argument array as launched. -/
theorem run_result : θ_run defs (onTc (τ := τ) (main (F := F))) ⟨m, fun _ => 0, ρ⟩ (fun r => ∀ c : Dev nD,
      r.2.mem ((c.tc : Thread nD τ).loc main_v8) = W6 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v8 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Whole

end
-- ==== Proof.Payload.lean ====
/-
  What each of the three kernel bodies stores, read at an index of its row block: with x the block of
  activations, w the whole weight matrix and b the one-row bias, entry (p, q) is
  Σ_k x(p,k)·w(q,k) + b(0,q) — the matrix unit's product of x with w contracted over the SECOND axis of
  both (so w enters by rows), accumulated from zero, plus the bias row broadcast down the block — and, in
  the first two layers, the maximum of that with zero. The changes of float format around the product are
  the identity on the extended reals.
-/
import proofs.«108455_j7619271983254_2_alg».proof.Proof.Gen.KernelIdeal.Skeleton
import proofs.«108455_j7619271983254_2_alg».proof.Proof.Dense
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

theorem lhs128_0 (i : S128x4096.Idx) (s : dot_S128x4096_S4096x4096_S128x4096_1_1_0_0_n_n.contr.Idx) : (dot_S128x4096_S4096x4096_S128x4096_1_1_0_0_n_n.lhsIdx i s 0).val = (i 0).val := by
  unfold DotDims.lhsIdx
  rw [dif_neg (show ¬(0 : Fin S128x4096.rank) ∈ dot_S128x4096_S4096x4096_S128x4096_1_1_0_0_n_n.lhsBatch by decide), dif_pos (show (0 : Fin S128x4096.rank) ∈ dot_S128x4096_S4096x4096_S128x4096_1_1_0_0_n_n.lhsNonContracting by decide)]
  rfl
theorem lhs128_1 (i : S128x4096.Idx) (s : dot_S128x4096_S4096x4096_S128x4096_1_1_0_0_n_n.contr.Idx) : (dot_S128x4096_S4096x4096_S128x4096_1_1_0_0_n_n.lhsIdx i s 1).val = (s ⟨0, by decide⟩).val :=
  dot_S128x4096_S4096x4096_S128x4096_1_1_0_0_n_n.lhsIdx_val_of_single rfl i s
theorem rhs128_0 (i : S128x4096.Idx) (s : dot_S128x4096_S4096x4096_S128x4096_1_1_0_0_n_n.contr.Idx) : (dot_S128x4096_S4096x4096_S128x4096_1_1_0_0_n_n.rhsIdx i s 0).val = (i 1).val := by
  unfold DotDims.rhsIdx
  rw [dif_neg (show ¬(0 : Fin S4096x4096.rank) ∈ dot_S128x4096_S4096x4096_S128x4096_1_1_0_0_n_n.rhsBatch by decide), dif_pos (show (0 : Fin S4096x4096.rank) ∈ dot_S128x4096_S4096x4096_S128x4096_1_1_0_0_n_n.rhsNonContracting by decide)]
  rfl
theorem rhs128_1 (i : S128x4096.Idx) (s : dot_S128x4096_S4096x4096_S128x4096_1_1_0_0_n_n.contr.Idx) : (dot_S128x4096_S4096x4096_S128x4096_1_1_0_0_n_n.rhsIdx i s 1).val = (s ⟨0, by decide⟩).val :=
  dot_S128x4096_S4096x4096_S128x4096_1_1_0_0_n_n.rhsIdx_val_of_single rfl i s

/-- The matrix product of a 128-row block with the weight matrix, both contracted over their second axis, from a
    zero accumulator: entry (p, q) is Σ_k x(p,k)·w(q,k). -/
theorem mm128 (x : FVec Ideal S128x4096 .bf16) (w : FVec Ideal S4096x4096 .bf16) (p : Fin 128) (q : Fin 4096) :
    matmul dot_S128x4096_S4096x4096_S128x4096_1_1_0_0_n_n none x w (constant S128x4096 .f32 0x00000000#32) (ix2 p q)
      = ∑ k : Fin 4096, x (ix2 p k) * w (ix2 q k) := by
  refine (Ideal.matmul_constant_zero_apply dot_S128x4096_S4096x4096_S128x4096_1_1_0_0_n_n none x w (ix2 p q)).trans ?_
  rw [← Equiv.sum_comp (contrEquiv1 dot_S128x4096_S4096x4096_S128x4096_1_1_0_0_n_n 4096 rfl rfl).symm]
  refine Finset.sum_congr rfl fun k _ => ?_
  have hk := contrEquiv1_symm_val dot_S128x4096_S4096x4096_S128x4096_1_1_0_0_n_n 4096 rfl rfl k
  have el : dot_S128x4096_S4096x4096_S128x4096_1_1_0_0_n_n.lhsIdx (ix2 p q) ((contrEquiv1 dot_S128x4096_S4096x4096_S128x4096_1_1_0_0_n_n 4096 rfl rfl).symm k) = ix2 p k := funext fun a => Fin.ext (by
    match a with
    | ⟨0, _⟩ => exact lhs128_0 _ _
    | ⟨1, _⟩ => exact (lhs128_1 _ _).trans hk)
  have er : dot_S128x4096_S4096x4096_S128x4096_1_1_0_0_n_n.rhsIdx (ix2 p q) ((contrEquiv1 dot_S128x4096_S4096x4096_S128x4096_1_1_0_0_n_n 4096 rfl rfl).symm k) = ix2 q k := funext fun a => Fin.ext (by
    match a with
    | ⟨0, _⟩ => exact rhs128_0 _ _
    | ⟨1, _⟩ => exact (rhs128_1 _ _).trans hk)
  rw [el, er]

/-- The bias row broadcast down a 128-row block: entry (p, q) is b(0, q). -/
theorem bias128 (b : FVec Ideal S1x4096 .f32) (p : Fin 128) (q : Fin 4096) :
    broadcastTo S128x4096 b broadcasts_S1x4096_S128x4096 (ix2 p q) = b (ix2 (0 : Fin 1) q) :=
  broadcastTo_apply b broadcasts_S1x4096_S128x4096 (ix2 p q) (ix2 (0 : Fin 1) q) (fun a => by
    match a with
    | ⟨0, _⟩ => rfl
    | ⟨1, _⟩ => rfl)

theorem lhs64_0 (i : S64x4096.Idx) (s : dot_S64x4096_S4096x4096_S64x4096_1_1_0_0_n_n.contr.Idx) : (dot_S64x4096_S4096x4096_S64x4096_1_1_0_0_n_n.lhsIdx i s 0).val = (i 0).val := by
  unfold DotDims.lhsIdx
  rw [dif_neg (show ¬(0 : Fin S64x4096.rank) ∈ dot_S64x4096_S4096x4096_S64x4096_1_1_0_0_n_n.lhsBatch by decide), dif_pos (show (0 : Fin S64x4096.rank) ∈ dot_S64x4096_S4096x4096_S64x4096_1_1_0_0_n_n.lhsNonContracting by decide)]
  rfl
theorem lhs64_1 (i : S64x4096.Idx) (s : dot_S64x4096_S4096x4096_S64x4096_1_1_0_0_n_n.contr.Idx) : (dot_S64x4096_S4096x4096_S64x4096_1_1_0_0_n_n.lhsIdx i s 1).val = (s ⟨0, by decide⟩).val :=
  dot_S64x4096_S4096x4096_S64x4096_1_1_0_0_n_n.lhsIdx_val_of_single rfl i s
theorem rhs64_0 (i : S64x4096.Idx) (s : dot_S64x4096_S4096x4096_S64x4096_1_1_0_0_n_n.contr.Idx) : (dot_S64x4096_S4096x4096_S64x4096_1_1_0_0_n_n.rhsIdx i s 0).val = (i 1).val := by
  unfold DotDims.rhsIdx
  rw [dif_neg (show ¬(0 : Fin S4096x4096.rank) ∈ dot_S64x4096_S4096x4096_S64x4096_1_1_0_0_n_n.rhsBatch by decide), dif_pos (show (0 : Fin S4096x4096.rank) ∈ dot_S64x4096_S4096x4096_S64x4096_1_1_0_0_n_n.rhsNonContracting by decide)]
  rfl
theorem rhs64_1 (i : S64x4096.Idx) (s : dot_S64x4096_S4096x4096_S64x4096_1_1_0_0_n_n.contr.Idx) : (dot_S64x4096_S4096x4096_S64x4096_1_1_0_0_n_n.rhsIdx i s 1).val = (s ⟨0, by decide⟩).val :=
  dot_S64x4096_S4096x4096_S64x4096_1_1_0_0_n_n.rhsIdx_val_of_single rfl i s

/-- The matrix product of a 64-row block with the weight matrix, both contracted over their second axis, from a
    zero accumulator: entry (p, q) is Σ_k x(p,k)·w(q,k). -/
theorem mm64 (x : FVec Ideal S64x4096 .bf16) (w : FVec Ideal S4096x4096 .bf16) (p : Fin 64) (q : Fin 4096) :
    matmul dot_S64x4096_S4096x4096_S64x4096_1_1_0_0_n_n none x w (constant S64x4096 .f32 0x00000000#32) (ix2 p q)
      = ∑ k : Fin 4096, x (ix2 p k) * w (ix2 q k) := by
  refine (Ideal.matmul_constant_zero_apply dot_S64x4096_S4096x4096_S64x4096_1_1_0_0_n_n none x w (ix2 p q)).trans ?_
  rw [← Equiv.sum_comp (contrEquiv1 dot_S64x4096_S4096x4096_S64x4096_1_1_0_0_n_n 4096 rfl rfl).symm]
  refine Finset.sum_congr rfl fun k _ => ?_
  have hk := contrEquiv1_symm_val dot_S64x4096_S4096x4096_S64x4096_1_1_0_0_n_n 4096 rfl rfl k
  have el : dot_S64x4096_S4096x4096_S64x4096_1_1_0_0_n_n.lhsIdx (ix2 p q) ((contrEquiv1 dot_S64x4096_S4096x4096_S64x4096_1_1_0_0_n_n 4096 rfl rfl).symm k) = ix2 p k := funext fun a => Fin.ext (by
    match a with
    | ⟨0, _⟩ => exact lhs64_0 _ _
    | ⟨1, _⟩ => exact (lhs64_1 _ _).trans hk)
  have er : dot_S64x4096_S4096x4096_S64x4096_1_1_0_0_n_n.rhsIdx (ix2 p q) ((contrEquiv1 dot_S64x4096_S4096x4096_S64x4096_1_1_0_0_n_n 4096 rfl rfl).symm k) = ix2 q k := funext fun a => Fin.ext (by
    match a with
    | ⟨0, _⟩ => exact rhs64_0 _ _
    | ⟨1, _⟩ => exact (rhs64_1 _ _).trans hk)
  rw [el, er]

/-- The bias row broadcast down a 64-row block: entry (p, q) is b(0, q). -/
theorem bias64 (b : FVec Ideal S1x4096 .f32) (p : Fin 64) (q : Fin 4096) :
    broadcastTo S64x4096 b broadcasts_S1x4096_S64x4096 (ix2 p q) = b (ix2 (0 : Fin 1) q) :=
  broadcastTo_apply b broadcasts_S1x4096_S64x4096 (ix2 p q) (ix2 (0 : Fin 1) q) (fun a => by
    match a with
    | ⟨0, _⟩ => rfl
    | ⟨1, _⟩ => rfl)

/-- The last layer's store: the affine layer of the block, entry by entry. -/
theorem pay2_apply (x : Vec Ideal S128x4096 .bf16) (w : Vec Ideal S4096x4096 .bf16) (b : Vec Ideal S1x4096 .f32) (p : Fin 128) (q : Fin 4096) :
    k2_pay1 x w b (ix2 p q) = (∑ k : Fin 4096, x (ix2 p k) * w (ix2 q k)) + b (ix2 (0 : Fin 1) q) := by
  unfold k2_pay1
  simp only [shapeCast_self]
  refine (addf_apply _ _ _).trans ?_
  rw [mm128, bias128]

/-- The second layer's store: the rectified affine layer of the block, entry by entry. -/
theorem pay1_apply (x : Vec Ideal S128x4096 .bf16) (w : Vec Ideal S4096x4096 .bf16) (b : Vec Ideal S1x4096 .f32) (p : Fin 128) (q : Fin 4096) :
    k1_pay1 x w b (ix2 p q) = max ((∑ k : Fin 4096, x (ix2 p k) * w (ix2 q k)) + b (ix2 (0 : Fin 1) q)) (Ideal.ofBits .f32 0x00000000#32) := by
  unfold k1_pay1
  simp only [shapeCast_self]
  refine (truncf_apply (ψ := .bf16) _ bitsLt_bf16_f32 (ix2 p q)).trans ?_
  refine (maximumf_apply _ _ _).trans ?_
  rw [addf_apply, mm128, bias128]
  rfl

/-- The first layer's store: the rectified affine layer of the block, entry by entry (the block arrives in the wider
    format and is narrowed before the product: no change on the extended reals). -/
theorem pay0_apply (x : Vec Ideal S64x4096 .f32) (w : Vec Ideal S4096x4096 .bf16) (b : Vec Ideal S1x4096 .f32) (p : Fin 64) (q : Fin 4096) :
    k0_pay1 x w b (ix2 p q) = max ((∑ k : Fin 4096, x (ix2 p k) * w (ix2 q k)) + b (ix2 (0 : Fin 1) q)) (Ideal.ofBits .f32 0x00000000#32) := by
  unfold k0_pay1
  simp only [shapeCast_self]
  refine (truncf_apply (ψ := .bf16) _ bitsLt_bf16_f32 (ix2 p q)).trans ?_
  refine (maximumf_apply _ _ _).trans ?_
  rw [addf_apply, mm64, bias64]
  rfl

end Cert.KernelIdeal.Payload

end
-- ==== Proof.Layer0.lean ====
/-
  The first layer's output array after its region, for ANY contents V of the buffers when the region is
  entered. Grid point t works on rows 64t … 64t + 63: its block of activations is those rows of the
  activation array, its weight block is the whole weight matrix and its bias block the whole bias row, at every
  point; what it writes back is those same rows of the rectified affine layer of the three arrays. The 128 row blocks tile
  the 8192 rows (row r lies in block r / 64), so the array ends holding that layer everywhere.
-/
import proofs.«108455_j7619271983254_2_alg».proof.Proof.Gen.KernelIdeal.Frame
import proofs.«108455_j7619271983254_2_alg».proof.Proof.Payload
import proofs.«108455_j7619271983254_2_alg».proof.Proof.Dense
import Idealize.ShloMosaic.Lib.Pipeline.Value
import Idealize.ShloMosaic.Lib.ValueIdx

set_option maxRecDepth 16384

noncomputable section

namespace Cert.KernelIdeal.Layer0

open Cert.KernelIdeal Cert.KernelIdeal.Gen Cert.KernelIdeal.Payload Cert.Dense
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activations' and the output's block index is (t, 0); the weight's and
    the bias's is (0, 0) at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_N (t : Fin cfg0.N) : t.val < 128 := lt_of_lt_of_eq t.isLt (N_0 : cfg0.N = 128)

/-- The block of activations at point t, entry (p, k), is entry (64t + p, k) of the activation array. -/
theorem x_blk (c : Dev nD) (t : Fin cfg0.N) (p : Fin 64) (k : Fin 4096) (r : Fin 8192) (hr : r.val = t.val * 64 + p.val) :
    (iblk0 V c 0 t : Vec Ideal S64x4096 .f32) (ix2 p k) = V c main_arg0 (ix2 r k) := by
  obtain ⟨e0, e1, -⟩ := idx_facts t
  unfold iblk0
  rw [View.read_apply]
  show V c main_arg0 _ = V c main_arg0 _
  congr 1
  funext a; apply Fin.ext
  match a with
  | ⟨0, _⟩ => show win0_0.index t (0 : Fin 2) * 64 + 1 * p.val = r.val; rw [e0, hr]; omega
  | ⟨1, _⟩ => show win0_0.index t (1 : Fin 2) * 4096 + 1 * k.val = k.val; rw [e1]; omega

/-- The weight block at every point is the whole weight matrix. -/
theorem w_blk (c : Dev nD) (t : Fin cfg0.N) (q k : Fin 4096) :
    (iblk0 V c 1 t : Vec Ideal S4096x4096 .bf16) (ix2 q k) = V c main_v0 (ix2 q k) := by
  obtain ⟨-, -, e2, e3, -⟩ := idx_facts t
  unfold iblk0
  rw [View.read_apply]
  show V c main_v0 _ = V c main_v0 _
  congr 1
  funext a; apply Fin.ext
  match a with
  | ⟨0, _⟩ => show win0_1.index t (0 : Fin 2) * 4096 + 1 * q.val = q.val; rw [e2]; omega
  | ⟨1, _⟩ => show win0_1.index t (1 : Fin 2) * 4096 + 1 * k.val = k.val; rw [e3]; omega

/-- The bias block at every point is the whole bias row. -/
theorem b_blk (c : Dev nD) (t : Fin cfg0.N) (q : Fin 4096) :
    (iblk0 V c 2 t : Vec Ideal S1x4096 .f32) (ix2 (0 : Fin 1) q) = V c main_v1 (ix2 (0 : Fin 1) q) := by
  obtain ⟨-, -, -, -, e4, e5, -⟩ := idx_facts t
  unfold iblk0
  rw [View.read_apply]
  show V c main_v1 _ = V c main_v1 _
  congr 1
  funext a; apply Fin.ext
  match a with
  | ⟨0, _⟩ => show win0_2.index t (0 : Fin 2) * 1 + 1 * 0 = 0; rw [e4]
  | ⟨1, _⟩ => show win0_2.index t (1 : Fin 2) * 4096 + 1 * q.val = q.val; rw [e5]; omega

/-- What point t writes back is rows 64t … 64t + 63 of the layer of the three arrays as the region finds them. -/
theorem flushed_eq (c : Dev nD) (t : Fin cfg0.N) :
    (dat0 V c).flushed 3 t = ((cfg0.win 3).blk t).view.read (Elt Ideal) (relu (affine (V c main_arg0) (V c main_v0) (V c main_v1))) := by
  show (cfg0.win 3).cut (grid0.coords t) ((dat0 V c).after 3 t) = _
  rw [after0_3]
  unfold out0_3
  rw [View.canon_unit_zero hz]
  simp only [View.ld_unit_zero (S := S64x4096) hz, View.ld_unit_zero (S := S4096x4096) hz, View.ld_unit_zero (S := S1x4096) hz]
  funext j
  obtain ⟨p, q, rfl⟩ : ∃ (p : Fin 64) (q : Fin 4096), j = ix2 p q := ⟨j 0, j 1, eq_ix2 (n0 := 64) (n1 := 4096) j⟩
  have ht := lt_N t
  have hp := p.isLt
  obtain ⟨-, -, -, -, -, -, e6, e7⟩ := idx_facts t
  have hemb : ((cfg0.win 3).blk t).view.emb (ix2 p q) = ix2 (⟨t.val * 64 + p.val, by omega⟩ : Fin 8192) q := by
    funext a; apply Fin.ext
    match a with
    | ⟨0, _⟩ => show win0_3.index t (0 : Fin 2) * 64 + 1 * p.val = t.val * 64 + p.val; rw [e6]; omega
    | ⟨1, _⟩ => show win0_3.index t (1 : Fin 2) * 4096 + 1 * q.val = q.val; rw [e7]; omega
  show k0_pay1 (iblk0 V c 0 t) (iblk0 V c 1 t) (iblk0 V c 2 t) (ix2 p q) = (relu (affine (V c main_arg0) (V c main_v0) (V c main_v1))) (((cfg0.win 3).blk t).view.emb (ix2 p q))
  rw [hemb, relu_apply, affine_ix2]
  refine (pay0_apply (iblk0 V c 0 t) (iblk0 V c 1 t) (iblk0 V c 2 t) p q).trans ?_
  congr 1
  congr 1
  · refine Finset.sum_congr rfl fun k _ => ?_
    rw [x_blk V c t p k ⟨t.val * 64 + p.val, by omega⟩ rfl, w_blk V c t q k]
  · exact b_blk V c t q

/-- An index of the array is in point t's block iff each coordinate is in the block's range on its axis. -/
theorem mem_blk (t : Fin cfg0.N) (i : S8192x4096.Idx) :
    i ∈ ((cfg0.win 3).blk t).view.set ↔ ∀ a : Fin 2, win0_3.index t a * S64x4096.size a ≤ (i a).val ∧ (i a).val < win0_3.index t a * S64x4096.size a + S64x4096.size a := by
  show i ∈ ((View.whole main_v2).slice (win0_3.rect t)).set ↔ _
  rw [View.set_slice_whole, Rect.mem_set_unit]
  exact Iff.rfl

/-- Row r of the output lies in the block of point r / 64. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : (i 0).val / 64 < cfg0.N := by rw [show cfg0.N = 128 from N_0]; omega
  obtain ⟨-, -, -, -, -, -, e6, e7⟩ := idx_facts ⟨(i 0).val / 64, hN⟩
  refine ⟨⟨(i 0).val / 64, hN⟩, flush0_3 _, ?_⟩
  rw [mem_blk]
  intro a
  match a with
  | ⟨0, _⟩ =>
    show win0_3.index ⟨(i 0).val / 64, hN⟩ (0 : Fin 2) * 64 ≤ (i 0).val ∧ (i 0).val < win0_3.index ⟨(i 0).val / 64, hN⟩ (0 : Fin 2) * 64 + 64
    rw [e6]; show (i 0).val / 64 * 64 ≤ (i 0).val ∧ (i 0).val < (i 0).val / 64 * 64 + 64; omega
  | ⟨1, _⟩ =>
    show win0_3.index ⟨(i 0).val / 64, hN⟩ (1 : Fin 2) * 4096 ≤ (i 1).val ∧ (i 1).val < win0_3.index ⟨(i 0).val / 64, hN⟩ (1 : Fin 2) * 4096 + 4096
    rw [e7]; omega

/-- The output array after the region: the layer of the activation array, the weight matrix and the bias row as the
    region found them. -/
theorem final (c : Dev nD) : (dat0 V c).arrAt 3 cfg0.N = relu (affine (V c main_arg0) (V c main_v0) (V c main_v1)) :=
  (dat0 V c).arrAt_eq_of_cover 3 (relu (affine (V c main_arg0) (V c main_v0) (V c main_v1))) (fun t _ => flushed_eq V c t) cover

end Cert.KernelIdeal.Layer0

end
-- ==== Proof.Layer1.lean ====
/-
  The second layer's output array after its region, for ANY contents V of the buffers when the region is
  entered. Grid point t works on rows 128t … 128t + 127: its block of activations is those rows of the
  activation array, its weight block is the whole weight matrix and its bias block the whole bias row, at every
  point; what it writes back is those same rows of the rectified affine layer of the three arrays. The 64 row blocks tile
  the 8192 rows (row r lies in block r / 128), so the array ends holding that layer everywhere.
-/
import proofs.«108455_j7619271983254_2_alg».proof.Proof.Gen.KernelIdeal.Frame
import proofs.«108455_j7619271983254_2_alg».proof.Proof.Payload
import proofs.«108455_j7619271983254_2_alg».proof.Proof.Dense
import Idealize.ShloMosaic.Lib.Pipeline.Value
import Idealize.ShloMosaic.Lib.ValueIdx

set_option maxRecDepth 16384

noncomputable section

namespace Cert.KernelIdeal.Layer1

open Cert.KernelIdeal Cert.KernelIdeal.Gen Cert.KernelIdeal.Payload Cert.Dense
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activations' and the output's block index is (t, 0); the weight's and
    the bias's is (0, 0) at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt_N (t : Fin cfg1.N) : t.val < 64 := lt_of_lt_of_eq t.isLt (N_1 : cfg1.N = 64)

/-- The block of activations at point t, entry (p, k), is entry (128t + p, k) of the activation array. -/
theorem x_blk (c : Dev nD) (t : Fin cfg1.N) (p : Fin 128) (k : Fin 4096) (r : Fin 8192) (hr : r.val = t.val * 128 + p.val) :
    (iblk1 V c 0 t : Vec Ideal S128x4096 .bf16) (ix2 p k) = V c main_v2 (ix2 r k) := by
  obtain ⟨e0, e1, -⟩ := idx_facts t
  unfold iblk1
  rw [View.read_apply]
  show V c main_v2 _ = V c main_v2 _
  congr 1
  funext a; apply Fin.ext
  match a with
  | ⟨0, _⟩ => show win1_0.index t (0 : Fin 2) * 128 + 1 * p.val = r.val; rw [e0, hr]; omega
  | ⟨1, _⟩ => show win1_0.index t (1 : Fin 2) * 4096 + 1 * k.val = k.val; rw [e1]; omega

/-- The weight block at every point is the whole weight matrix. -/
theorem w_blk (c : Dev nD) (t : Fin cfg1.N) (q k : Fin 4096) :
    (iblk1 V c 1 t : Vec Ideal S4096x4096 .bf16) (ix2 q k) = V c main_v3 (ix2 q k) := by
  obtain ⟨-, -, e2, e3, -⟩ := idx_facts t
  unfold iblk1
  rw [View.read_apply]
  show V c main_v3 _ = V c main_v3 _
  congr 1
  funext a; apply Fin.ext
  match a with
  | ⟨0, _⟩ => show win1_1.index t (0 : Fin 2) * 4096 + 1 * q.val = q.val; rw [e2]; omega
  | ⟨1, _⟩ => show win1_1.index t (1 : Fin 2) * 4096 + 1 * k.val = k.val; rw [e3]; omega

/-- The bias block at every point is the whole bias row. -/
theorem b_blk (c : Dev nD) (t : Fin cfg1.N) (q : Fin 4096) :
    (iblk1 V c 2 t : Vec Ideal S1x4096 .f32) (ix2 (0 : Fin 1) q) = V c main_v4 (ix2 (0 : Fin 1) q) := by
  obtain ⟨-, -, -, -, e4, e5, -⟩ := idx_facts t
  unfold iblk1
  rw [View.read_apply]
  show V c main_v4 _ = V c main_v4 _
  congr 1
  funext a; apply Fin.ext
  match a with
  | ⟨0, _⟩ => show win1_2.index t (0 : Fin 2) * 1 + 1 * 0 = 0; rw [e4]
  | ⟨1, _⟩ => show win1_2.index t (1 : Fin 2) * 4096 + 1 * q.val = q.val; rw [e5]; omega

/-- What point t writes back is rows 128t … 128t + 127 of the layer of the three arrays as the region finds them. -/
theorem flushed_eq (c : Dev nD) (t : Fin cfg1.N) :
    (dat1 V c).flushed 3 t = ((cfg1.win 3).blk t).view.read (Elt Ideal) (relu (affine (V c main_v2) (V c main_v3) (V c main_v4))) := by
  show (cfg1.win 3).cut (grid1.coords t) ((dat1 V c).after 3 t) = _
  rw [after1_3]
  unfold out1_3
  rw [View.canon_unit_zero hz]
  simp only [View.ld_unit_zero (S := S128x4096) hz, View.ld_unit_zero (S := S4096x4096) hz, View.ld_unit_zero (S := S1x4096) hz]
  funext j
  obtain ⟨p, q, rfl⟩ : ∃ (p : Fin 128) (q : Fin 4096), j = ix2 p q := ⟨j 0, j 1, eq_ix2 (n0 := 128) (n1 := 4096) j⟩
  have ht := lt_N t
  have hp := p.isLt
  obtain ⟨-, -, -, -, -, -, e6, e7⟩ := idx_facts t
  have hemb : ((cfg1.win 3).blk t).view.emb (ix2 p q) = ix2 (⟨t.val * 128 + p.val, by omega⟩ : Fin 8192) q := by
    funext a; apply Fin.ext
    match a with
    | ⟨0, _⟩ => show win1_3.index t (0 : Fin 2) * 128 + 1 * p.val = t.val * 128 + p.val; rw [e6]; omega
    | ⟨1, _⟩ => show win1_3.index t (1 : Fin 2) * 4096 + 1 * q.val = q.val; rw [e7]; omega
  show k1_pay1 (iblk1 V c 0 t) (iblk1 V c 1 t) (iblk1 V c 2 t) (ix2 p q) = (relu (affine (V c main_v2) (V c main_v3) (V c main_v4))) (((cfg1.win 3).blk t).view.emb (ix2 p q))
  rw [hemb, relu_apply, affine_ix2]
  refine (pay1_apply (iblk1 V c 0 t) (iblk1 V c 1 t) (iblk1 V c 2 t) p q).trans ?_
  congr 1
  congr 1
  · refine Finset.sum_congr rfl fun k _ => ?_
    rw [x_blk V c t p k ⟨t.val * 128 + p.val, by omega⟩ rfl, w_blk V c t q k]
  · exact b_blk V c t q

/-- An index of the array is in point t's block iff each coordinate is in the block's range on its axis. -/
theorem mem_blk (t : Fin cfg1.N) (i : S8192x4096.Idx) :
    i ∈ ((cfg1.win 3).blk t).view.set ↔ ∀ a : Fin 2, win1_3.index t a * S128x4096.size a ≤ (i a).val ∧ (i a).val < win1_3.index t a * S128x4096.size a + S128x4096.size a := by
  show i ∈ ((View.whole main_v5).slice (win1_3.rect t)).set ↔ _
  rw [View.set_slice_whole, Rect.mem_set_unit]
  exact Iff.rfl

/-- Row r of the output lies in the block of point r / 128. -/
theorem cover (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hN : (i 0).val / 128 < cfg1.N := by rw [show cfg1.N = 64 from N_1]; omega
  obtain ⟨-, -, -, -, -, -, e6, e7⟩ := idx_facts ⟨(i 0).val / 128, hN⟩
  refine ⟨⟨(i 0).val / 128, hN⟩, flush1_3 _, ?_⟩
  rw [mem_blk]
  intro a
  match a with
  | ⟨0, _⟩ =>
    show win1_3.index ⟨(i 0).val / 128, hN⟩ (0 : Fin 2) * 128 ≤ (i 0).val ∧ (i 0).val < win1_3.index ⟨(i 0).val / 128, hN⟩ (0 : Fin 2) * 128 + 128
    rw [e6]; show (i 0).val / 128 * 128 ≤ (i 0).val ∧ (i 0).val < (i 0).val / 128 * 128 + 128; omega
  | ⟨1, _⟩ =>
    show win1_3.index ⟨(i 0).val / 128, hN⟩ (1 : Fin 2) * 4096 ≤ (i 1).val ∧ (i 1).val < win1_3.index ⟨(i 0).val / 128, hN⟩ (1 : Fin 2) * 4096 + 4096
    rw [e7]; omega

/-- The output array after the region: the layer of the activation array, the weight matrix and the bias row as the
    region found them. -/
theorem final (c : Dev nD) : (dat1 V c).arrAt 3 cfg1.N = relu (affine (V c main_v2) (V c main_v3) (V c main_v4)) :=
  (dat1 V c).arrAt_eq_of_cover 3 (relu (affine (V c main_v2) (V c main_v3) (V c main_v4))) (fun t _ => flushed_eq V c t) cover

end Cert.KernelIdeal.Layer1

end
-- ==== Proof.Layer2.lean ====
/-
  The third layer's output array after its region, for ANY contents V of the buffers when the region is
  entered. Grid point t works on rows 128t … 128t + 127: its block of activations is those rows of the
  activation array, its weight block is the whole weight matrix and its bias block the whole bias row, at every
  point; what it writes back is those same rows of the affine layer of the three arrays. The 64 row blocks tile
  the 8192 rows (row r lies in block r / 128), so the array ends holding that layer everywhere.
-/
import proofs.«108455_j7619271983254_2_alg».proof.Proof.Gen.KernelIdeal.Frame
import proofs.«108455_j7619271983254_2_alg».proof.Proof.Payload
import proofs.«108455_j7619271983254_2_alg».proof.Proof.Dense
import Idealize.ShloMosaic.Lib.Pipeline.Value
import Idealize.ShloMosaic.Lib.ValueIdx

set_option maxRecDepth 16384

noncomputable section

namespace Cert.KernelIdeal.Layer2

open Cert.KernelIdeal Cert.KernelIdeal.Gen Cert.KernelIdeal.Payload Cert.Dense
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activations' and the output's block index is (t, 0); the weight's and
    the bias's is (0, 0) at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_N (t : Fin cfg2.N) : t.val < 64 := lt_of_lt_of_eq t.isLt (N_2 : cfg2.N = 64)

/-- The block of activations at point t, entry (p, k), is entry (128t + p, k) of the activation array. -/
theorem x_blk (c : Dev nD) (t : Fin cfg2.N) (p : Fin 128) (k : Fin 4096) (r : Fin 8192) (hr : r.val = t.val * 128 + p.val) :
    (iblk2 V c 0 t : Vec Ideal S128x4096 .bf16) (ix2 p k) = V c main_v5 (ix2 r k) := by
  obtain ⟨e0, e1, -⟩ := idx_facts t
  unfold iblk2
  rw [View.read_apply]
  show V c main_v5 _ = V c main_v5 _
  congr 1
  funext a; apply Fin.ext
  match a with
  | ⟨0, _⟩ => show win2_0.index t (0 : Fin 2) * 128 + 1 * p.val = r.val; rw [e0, hr]; omega
  | ⟨1, _⟩ => show win2_0.index t (1 : Fin 2) * 4096 + 1 * k.val = k.val; rw [e1]; omega

/-- The weight block at every point is the whole weight matrix. -/
theorem w_blk (c : Dev nD) (t : Fin cfg2.N) (q k : Fin 4096) :
    (iblk2 V c 1 t : Vec Ideal S4096x4096 .bf16) (ix2 q k) = V c main_v6 (ix2 q k) := by
  obtain ⟨-, -, e2, e3, -⟩ := idx_facts t
  unfold iblk2
  rw [View.read_apply]
  show V c main_v6 _ = V c main_v6 _
  congr 1
  funext a; apply Fin.ext
  match a with
  | ⟨0, _⟩ => show win2_1.index t (0 : Fin 2) * 4096 + 1 * q.val = q.val; rw [e2]; omega
  | ⟨1, _⟩ => show win2_1.index t (1 : Fin 2) * 4096 + 1 * k.val = k.val; rw [e3]; omega

/-- The bias block at every point is the whole bias row. -/
theorem b_blk (c : Dev nD) (t : Fin cfg2.N) (q : Fin 4096) :
    (iblk2 V c 2 t : Vec Ideal S1x4096 .f32) (ix2 (0 : Fin 1) q) = V c main_v7 (ix2 (0 : Fin 1) q) := by
  obtain ⟨-, -, -, -, e4, e5, -⟩ := idx_facts t
  unfold iblk2
  rw [View.read_apply]
  show V c main_v7 _ = V c main_v7 _
  congr 1
  funext a; apply Fin.ext
  match a with
  | ⟨0, _⟩ => show win2_2.index t (0 : Fin 2) * 1 + 1 * 0 = 0; rw [e4]
  | ⟨1, _⟩ => show win2_2.index t (1 : Fin 2) * 4096 + 1 * q.val = q.val; rw [e5]; omega

/-- What point t writes back is rows 128t … 128t + 127 of the layer of the three arrays as the region finds them. -/
theorem flushed_eq (c : Dev nD) (t : Fin cfg2.N) :
    (dat2 V c).flushed 3 t = ((cfg2.win 3).blk t).view.read (Elt Ideal) (affine (V c main_v5) (V c main_v6) (V c main_v7)) := by
  show (cfg2.win 3).cut (grid2.coords t) ((dat2 V c).after 3 t) = _
  rw [after2_3]
  unfold out2_3
  rw [View.canon_unit_zero hz]
  simp only [View.ld_unit_zero (S := S128x4096) hz, View.ld_unit_zero (S := S4096x4096) hz, View.ld_unit_zero (S := S1x4096) hz]
  funext j
  obtain ⟨p, q, rfl⟩ : ∃ (p : Fin 128) (q : Fin 4096), j = ix2 p q := ⟨j 0, j 1, eq_ix2 (n0 := 128) (n1 := 4096) j⟩
  have ht := lt_N t
  have hp := p.isLt
  obtain ⟨-, -, -, -, -, -, e6, e7⟩ := idx_facts t
  have hemb : ((cfg2.win 3).blk t).view.emb (ix2 p q) = ix2 (⟨t.val * 128 + p.val, by omega⟩ : Fin 8192) q := by
    funext a; apply Fin.ext
    match a with
    | ⟨0, _⟩ => show win2_3.index t (0 : Fin 2) * 128 + 1 * p.val = t.val * 128 + p.val; rw [e6]; omega
    | ⟨1, _⟩ => show win2_3.index t (1 : Fin 2) * 4096 + 1 * q.val = q.val; rw [e7]; omega
  show k2_pay1 (iblk2 V c 0 t) (iblk2 V c 1 t) (iblk2 V c 2 t) (ix2 p q) = (affine (V c main_v5) (V c main_v6) (V c main_v7)) (((cfg2.win 3).blk t).view.emb (ix2 p q))
  rw [hemb, affine_ix2]
  refine (pay2_apply (iblk2 V c 0 t) (iblk2 V c 1 t) (iblk2 V c 2 t) p q).trans ?_
  congr 1
  · refine Finset.sum_congr rfl fun k _ => ?_
    rw [x_blk V c t p k ⟨t.val * 128 + p.val, by omega⟩ rfl, w_blk V c t q k]
  · exact b_blk V c t q

/-- An index of the array is in point t's block iff each coordinate is in the block's range on its axis. -/
theorem mem_blk (t : Fin cfg2.N) (i : S8192x4096.Idx) :
    i ∈ ((cfg2.win 3).blk t).view.set ↔ ∀ a : Fin 2, win2_3.index t a * S128x4096.size a ≤ (i a).val ∧ (i a).val < win2_3.index t a * S128x4096.size a + S128x4096.size a := by
  show i ∈ ((View.whole main_v8).slice (win2_3.rect t)).set ↔ _
  rw [View.set_slice_whole, Rect.mem_set_unit]
  exact Iff.rfl

/-- Row r of the output lies in the block of point r / 128. -/
theorem cover (i : S8192x4096.Idx) : ∃ t : Fin cfg2.N, (cfg2.win 3).flush t = true ∧ i ∈ ((cfg2.win 3).blk t).view.set := by
  have hi0 : (i 0).val < 8192 := (i 0).isLt
  have hi1 : (i 1).val < 4096 := (i 1).isLt
  have hN : (i 0).val / 128 < cfg2.N := by rw [show cfg2.N = 64 from N_2]; omega
  obtain ⟨-, -, -, -, -, -, e6, e7⟩ := idx_facts ⟨(i 0).val / 128, hN⟩
  refine ⟨⟨(i 0).val / 128, hN⟩, flush2_3 _, ?_⟩
  rw [mem_blk]
  intro a
  match a with
  | ⟨0, _⟩ =>
    show win2_3.index ⟨(i 0).val / 128, hN⟩ (0 : Fin 2) * 128 ≤ (i 0).val ∧ (i 0).val < win2_3.index ⟨(i 0).val / 128, hN⟩ (0 : Fin 2) * 128 + 128
    rw [e6]; show (i 0).val / 128 * 128 ≤ (i 0).val ∧ (i 0).val < (i 0).val / 128 * 128 + 128; omega
  | ⟨1, _⟩ =>
    show win2_3.index ⟨(i 0).val / 128, hN⟩ (1 : Fin 2) * 4096 ≤ (i 1).val ∧ (i 1).val < win2_3.index ⟨(i 0).val / 128, hN⟩ (1 : Fin 2) * 4096 + 4096
    rw [e7]; omega

/-- The output array after the region: the layer of the activation array, the weight matrix and the bias row as the
    region found them. -/
theorem final (c : Dev nD) : (dat2 V c).arrAt 3 cfg2.N = affine (V c main_v5) (V c main_v6) (V c main_v7) :=
  (dat2 V c).arrAt_eq_of_cover 3 (affine (V c main_v5) (V c main_v6) (V c main_v7)) (fun t _ => flushed_eq V c t) cover

end Cert.KernelIdeal.Layer2

end
-- ==== Proof.Compose.lean ====
/-
  The kernel program's result as ONE function of its argument arrays. Reading the fold of buffer contents
  backwards from the result: the third layer's output is the affine layer of what the second left, of the
  third weight matrix after its change of format (the identity on the extended reals) and of the third bias
  seen as a one-row matrix; the second layer's output is the rectified affine layer of what the first left
  and of the second weight and bias; the first layer's is the rectified affine layer of the input and the
  first weight and bias. No host operation and no region writes an argument, and a region writes only its
  own output, so every array a layer reads is still what an earlier step left there.
-/
import proofs.«108455_j7619271983254_2_alg».proof.Proof.Gen.KernelIdeal.Frame
import proofs.«108455_j7619271983254_2_alg».proof.Proof.Layer0
import proofs.«108455_j7619271983254_2_alg».proof.Proof.Layer1
import proofs.«108455_j7619271983254_2_alg».proof.Proof.Layer2
import proofs.«108455_j7619271983254_2_alg».proof.Proof.Dense
import Idealize.ShloMosaic.Lib.StableHlo.Run
import Idealize.ShloMosaic.Lib.Pipeline.Value

set_option maxRecDepth 16384

noncomputable section

namespace Cert.KernelIdeal.Compose

open Cert.KernelIdeal Cert.KernelIdeal.Gen Cert.Dense
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- A vector reshaped to one row, as a function of the index, is the vector seen as a one-row matrix. -/
theorem reshape_row (b : S4096.Idx → EReal) :
    (fun i => shapeCast S1x4096 b shapeCasts_S4096_S1x4096 i) = row b := by
  funext i
  refine (shapeCast_addUnit_apply ![4096] b shapeCasts_S4096_S1x4096 i).trans ?_
  exact congrArg b (funext fun a => match a with | ⟨0, _⟩ => rfl)

/-! ## The arguments through the fold -/

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results <;> rfl

theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)

theorem W3_arg5 (c : Dev nD) : W3 m ρ c (Proc.devRef .tc main_arg5) = m ((c : Thread nD τ).loc main_arg5) := by
  refine Eq.trans ?_ (W2_arg5 m ρ c)
  show StableHlo.after hostOps1 (W2 m ρ c) (Proc.devRef .tc main_arg5) = _
  dsimp only [hostOps1]
  after_results <;> rfl
theorem W4_arg5 (c : Dev nD) : W4 m ρ c (Proc.devRef .tc main_arg5) = m ((c : Thread nD τ).loc main_arg5) :=
  (W4_of_ne m ρ c main_arg5 (by decide)).trans (W3_arg5 m ρ c)
theorem W3_arg6 (c : Dev nD) : W3 m ρ c (Proc.devRef .tc main_arg6) = m ((c : Thread nD τ).loc main_arg6) := by
  refine Eq.trans ?_ (W2_arg6 m ρ c)
  show StableHlo.after hostOps1 (W2 m ρ c) (Proc.devRef .tc main_arg6) = _
  dsimp only [hostOps1]
  after_results <;> rfl
theorem W4_arg6 (c : Dev nD) : W4 m ρ c (Proc.devRef .tc main_arg6) = m ((c : Thread nD τ).loc main_arg6) :=
  (W4_of_ne m ρ c main_arg6 (by decide)).trans (W3_arg6 m ρ c)

/-! ## What the first layer reads -/

theorem V1_x (c : Dev nD) : V1 m ρ c main_arg0 = m ((c : Thread nD τ).loc main_arg0) := W1_arg0 m ρ c

theorem V1_w (c : Dev nD) : (V1 m ρ c main_v0 : S4096x4096.Idx → EReal) = m ((c : Thread nD τ).loc main_arg1) := by
  show StableHlo.after hostOps0 (W0 m ρ c) (Proc.devRef .tc main_v0) = _
  dsimp only [hostOps0]
  after_results <;> rfl

theorem V1_b (c : Dev nD) : (V1 m ρ c main_v1 : S1x4096.Idx → EReal) = row (m ((c : Thread nD τ).loc main_arg2)) := by
  refine Eq.trans ?_ (reshape_row (m ((c : Thread nD τ).loc main_arg2)))
  show StableHlo.after hostOps0 (W0 m ρ c) (Proc.devRef .tc main_v1) = _
  dsimp only [hostOps0]
  after_results <;> rfl

/-- The first layer's output array. -/
def h0 (c : Dev nD) : S8192x4096.Idx → EReal :=
  relu (affine (m ((c : Thread nD τ).loc main_arg0)) (m ((c : Thread nD τ).loc main_arg1)) (row (m ((c : Thread nD τ).loc main_arg2))))

theorem W2_h0 (c : Dev nD) : (W2 m ρ c (Proc.devRef .tc main_v2) : S8192x4096.Idx → EReal) = h0 m c := by
  refine (W2_arr m ρ c 3).trans ?_
  rw [Layer0.final (V1 m ρ) c, V1_x, V1_w, V1_b]
  rfl

/-! ## What the second layer reads -/

theorem V3_x (c : Dev nD) : (V3 m ρ c main_v2 : S8192x4096.Idx → EReal) = h0 m c := by
  refine Eq.trans ?_ (W2_h0 m ρ c)
  show StableHlo.after hostOps1 (W2 m ρ c) (Proc.devRef .tc main_v2) = _
  dsimp only [hostOps1]
  after_results <;> rfl

theorem V3_w (c : Dev nD) : (V3 m ρ c main_v3 : S4096x4096.Idx → EReal) = m ((c : Thread nD τ).loc main_arg3) := by
  refine Eq.trans ?_ (W2_arg3 m ρ c)
  show StableHlo.after hostOps1 (W2 m ρ c) (Proc.devRef .tc main_v3) = _
  dsimp only [hostOps1]
  after_results <;> rfl

theorem V3_b (c : Dev nD) : (V3 m ρ c main_v4 : S1x4096.Idx → EReal) = row (m ((c : Thread nD τ).loc main_arg4)) := by
  refine Eq.trans ?_ (reshape_row (m ((c : Thread nD τ).loc main_arg4)))
  refine Eq.trans ?_ (congrArg (fun b : S4096.Idx → EReal => fun i => shapeCast S1x4096 b shapeCasts_S4096_S1x4096 i) (W2_arg4 m ρ c))
  show StableHlo.after hostOps1 (W2 m ρ c) (Proc.devRef .tc main_v4) = _
  dsimp only [hostOps1]
  after_results <;> rfl

/-- The second layer's output array. -/
def h1 (c : Dev nD) : S8192x4096.Idx → EReal :=
  relu (affine (h0 m c) (m ((c : Thread nD τ).loc main_arg3)) (row (m ((c : Thread nD τ).loc main_arg4))))

theorem W4_h1 (c : Dev nD) : (W4 m ρ c (Proc.devRef .tc main_v5) : S8192x4096.Idx → EReal) = h1 m c := by
  refine (W4_arr m ρ c 3).trans ?_
  rw [Layer1.final (V3 m ρ) c, V3_x, V3_w, V3_b]
  rfl

/-! ## What the third layer reads -/

theorem V5_x (c : Dev nD) : (V5 m ρ c main_v5 : S8192x4096.Idx → EReal) = h1 m c := by
  refine Eq.trans ?_ (W4_h1 m ρ c)
  show StableHlo.after hostOps2 (W4 m ρ c) (Proc.devRef .tc main_v5) = _
  dsimp only [hostOps2]
  after_results <;> rfl

theorem V5_w (c : Dev nD) : (V5 m ρ c main_v6 : S4096x4096.Idx → EReal) = m ((c : Thread nD τ).loc main_arg5) := by
  refine Eq.trans ?_ (W4_arg5 m ρ c)
  show StableHlo.after hostOps2 (W4 m ρ c) (Proc.devRef .tc main_v6) = _
  dsimp only [hostOps2]
  after_results <;> rfl

theorem V5_b (c : Dev nD) : (V5 m ρ c main_v7 : S1x4096.Idx → EReal) = row (m ((c : Thread nD τ).loc main_arg6)) := by
  refine Eq.trans ?_ (reshape_row (m ((c : Thread nD τ).loc main_arg6)))
  refine Eq.trans ?_ (congrArg (fun b : S4096.Idx → EReal => fun i => shapeCast S1x4096 b shapeCasts_S4096_S1x4096 i) (W4_arg6 m ρ c))
  show StableHlo.after hostOps2 (W4 m ρ c) (Proc.devRef .tc main_v7) = _
  dsimp only [hostOps2]
  after_results <;> rfl

/-- The result array after the run is the three-layer perceptron of the argument arrays. -/
theorem result_eq (c : Dev nD) : (W6 m ρ c (Proc.devRef .tc main_v8) : S8192x4096.Idx → EReal)
    = mlp (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) := by
  refine (W6_arr m ρ c 3).trans ?_
  rw [Layer2.final (V5 m ρ) c, V5_x, V5_w, V5_b]
  rfl

end Cert.KernelIdeal.Compose

end
-- ==== Proof.Reference.lean ====
/-
  The reference, layer by layer, is the same three-layer perceptron. Each of its layers forms the transpose
  of the weight matrix and contracts the activations' second axis with the transpose's first: entry (r, n)
  is Σ_k x(r,k)·wᵀ(k,n) = Σ_k x(r,k)·w(n,k), the weight read by rows after all; the bias vector is
  broadcast first to one row and then down the rows, so it contributes b(n); the rectification is the
  maximum with the zero word broadcast over the array.
-/
import proofs.«108455_j7619271983254_2_alg».proof.Proof.Gen.ReferenceIdeal.Read
import proofs.«108455_j7619271983254_2_alg».proof.Proof.Dense
import Idealize.ShloMosaic.Lib.ValueIdx

noncomputable section

namespace Cert.ReferenceIdeal.RefValue

open Cert.ReferenceIdeal Cert.ReferenceIdeal.Gen Cert.ReferenceIdeal.Read Cert.Dense
open Idealize.ShloMosaic Idealize.ShloMosaic.ValueIdx

/-- The reference's first layer is the rectified affine layer of the input, the first weight and the first bias. -/
theorem layer_one (x0 : S8192x4096.Idx → EReal) (x1 : S4096x4096.Idx → EReal) (x2 : S4096.Idx → EReal) :
    val_main_v5 (F := Ideal) x0 x1 x2 = relu (R := 8192) (affine (R := 8192) (x0) x1 (row x2)) := by
  funext i
  obtain ⟨p, q, rfl⟩ : ∃ (p : Fin 8192) (q : Fin 4096), i = ix2 p q := ⟨i 0, i 1, eq_ix2 (n0 := 8192) (n1 := 4096) i⟩
  have el : ∀ k : Fin 4096, lidx_main_v1 (ix2 p q) k = ix2 p k := fun k => funext fun a => Fin.ext (by
    match a with
    | ⟨0, _⟩ => rfl
    | ⟨1, _⟩ => rfl)
  have er : ∀ k : Fin 4096, idx_main_v0 (ridx_main_v1 (ix2 p q) k) = ix2 q k := fun k => funext fun a => Fin.ext (by
    match a with
    | ⟨0, _⟩ => rfl
    | ⟨1, _⟩ => rfl)
  have eb : idx_main_v2 (idx_main_v3 (ix2 p q)) = ix1 q := funext fun a => Fin.ext (by
    match a with
    | ⟨0, _⟩ => rfl)
  rw [val_main_v5_apply, val_main_v4_apply, val_main_v1_apply, val_main_v3_apply, val_main_v2_apply, val_main_call0_v0_apply, val_main_call0_cst_apply]
  simp only [val_main_v0_apply, el, er, eb]
  rw [relu_apply, affine_ix2, row_ix2]
  rfl

/-- The reference's second layer is the rectified affine layer of the first layer's output, the second weight and the second bias. -/
theorem layer_two (x0 : S8192x4096.Idx → EReal) (x1 : S4096x4096.Idx → EReal) (x2 : S4096.Idx → EReal) (x3 : S4096x4096.Idx → EReal) (x4 : S4096.Idx → EReal) :
    val_main_v11 (F := Ideal) x0 x1 x2 x3 x4 = relu (R := 8192) (affine (R := 8192) (val_main_v5 (F := Ideal) x0 x1 x2) x3 (row x4)) := by
  funext i
  obtain ⟨p, q, rfl⟩ : ∃ (p : Fin 8192) (q : Fin 4096), i = ix2 p q := ⟨i 0, i 1, eq_ix2 (n0 := 8192) (n1 := 4096) i⟩
  have el : ∀ k : Fin 4096, lidx_main_v7 (ix2 p q) k = ix2 p k := fun k => funext fun a => Fin.ext (by
    match a with
    | ⟨0, _⟩ => rfl
    | ⟨1, _⟩ => rfl)
  have er : ∀ k : Fin 4096, idx_main_v6 (ridx_main_v7 (ix2 p q) k) = ix2 q k := fun k => funext fun a => Fin.ext (by
    match a with
    | ⟨0, _⟩ => rfl
    | ⟨1, _⟩ => rfl)
  have eb : idx_main_v8 (idx_main_v9 (ix2 p q)) = ix1 q := funext fun a => Fin.ext (by
    match a with
    | ⟨0, _⟩ => rfl)
  rw [val_main_v11_apply, val_main_v10_apply, val_main_v7_apply, val_main_v9_apply, val_main_v8_apply, val_main_call1_v0_apply, val_main_call1_cst_apply]
  simp only [val_main_v6_apply, el, er, eb]
  rw [relu_apply, affine_ix2, row_ix2]
  rfl

/-- The reference's last layer is the affine layer of the second layer's output, the third weight and the third bias. -/
theorem layer_three (x0 : S8192x4096.Idx → EReal) (x1 : S4096x4096.Idx → EReal) (x2 : S4096.Idx → EReal) (x3 : S4096x4096.Idx → EReal) (x4 : S4096.Idx → EReal) (x5 : S4096x4096.Idx → EReal) (x6 : S4096.Idx → EReal) :
    val_main_v16 (F := Ideal) x0 x1 x2 x3 x4 x5 x6 = affine (R := 8192) (val_main_v11 (F := Ideal) x0 x1 x2 x3 x4) x5 (row x6) := by
  funext i
  obtain ⟨p, q, rfl⟩ : ∃ (p : Fin 8192) (q : Fin 4096), i = ix2 p q := ⟨i 0, i 1, eq_ix2 (n0 := 8192) (n1 := 4096) i⟩
  have el : ∀ k : Fin 4096, lidx_main_v13 (ix2 p q) k = ix2 p k := fun k => funext fun a => Fin.ext (by
    match a with
    | ⟨0, _⟩ => rfl
    | ⟨1, _⟩ => rfl)
  have er : ∀ k : Fin 4096, idx_main_v12 (ridx_main_v13 (ix2 p q) k) = ix2 q k := fun k => funext fun a => Fin.ext (by
    match a with
    | ⟨0, _⟩ => rfl
    | ⟨1, _⟩ => rfl)
  have eb : idx_main_v14 (idx_main_v15 (ix2 p q)) = ix1 q := funext fun a => Fin.ext (by
    match a with
    | ⟨0, _⟩ => rfl)
  rw [val_main_v16_apply, val_main_v13_apply, val_main_v15_apply, val_main_v14_apply]
  simp only [val_main_v12_apply, el, er, eb]
  rw [affine_ix2, row_ix2]
  rfl

/-- The reference's result is the three-layer perceptron of its arguments. -/
theorem result_eq (x0 : S8192x4096.Idx → EReal) (x1 : S4096x4096.Idx → EReal) (x2 : S4096.Idx → EReal) (x3 : S4096x4096.Idx → EReal)
    (x4 : S4096.Idx → EReal) (x5 : S4096x4096.Idx → EReal) (x6 : S4096.Idx → EReal) :
    val_main_v16 (F := Ideal) x0 x1 x2 x3 x4 x5 x6 = mlp x0 x1 x2 x3 x4 x5 x6 := by
  rw [layer_three, layer_two, layer_one]
  rfl

end Cert.ReferenceIdeal.RefValue

end
-- ==== Proof.lean ====
/-
  The kernel is a three-layer perceptron, each layer one row-blocked region: relu(x·W0ᵀ + b0), then
  relu(·W1ᵀ + b1), then ·W2ᵀ + b2, with the weights narrowed in format on the host and the activations
  narrowed between layers; the reference is the same perceptron in one format, with the weights transposed
  before each product. On the extended reals a change of format is the identity and both programs compute,
  at row r and column n of each layer, Σ_k x(r,k)·w(n,k) + b(n) (rectified in the first two layers): the
  same sum over the same index in the same order, so no algebraic law beyond the definitions is needed and
  the finiteness of the inputs is never used.

  The three frames: the two kernel programs' are the generated ones; the reference has no kernel and its
  frame is its run with the result dropped. The ideal pass rewrote nothing, so the idealization claim is
  trivial. The equivalence sets the kernel program's run, with its result array read as the perceptron of the
  arguments (module Compose over the three layers' modules), beside the reference's run read the same way
  (module Reference).
-/
import proofs.«108455_j7619271983254_2_alg».proof.Defs
import proofs.«108455_j7619271983254_2_alg».proof.Proof.Gen.Kernel
import proofs.«108455_j7619271983254_2_alg».proof.Proof.Gen.Kernel.Skeleton
import proofs.«108455_j7619271983254_2_alg».proof.Proof.Gen.Kernel.Launch
import proofs.«108455_j7619271983254_2_alg».proof.Proof.Gen.Kernel.Points
import proofs.«108455_j7619271983254_2_alg».proof.Proof.Gen.Kernel.Frame
import proofs.«108455_j7619271983254_2_alg».proof.Proof.Gen.KernelIdeal
import proofs.«108455_j7619271983254_2_alg».proof.Proof.Gen.KernelIdeal.Skeleton
import proofs.«108455_j7619271983254_2_alg».proof.Proof.Gen.KernelIdeal.Launch
import proofs.«108455_j7619271983254_2_alg».proof.Proof.Gen.KernelIdeal.Points
import proofs.«108455_j7619271983254_2_alg».proof.Proof.Gen.KernelIdeal.Frame
import proofs.«108455_j7619271983254_2_alg».proof.Proof.Gen.ReferenceIdeal
import proofs.«108455_j7619271983254_2_alg».proof.Proof.Gen.ReferenceIdeal.Run
import proofs.«108455_j7619271983254_2_alg».proof.Proof.Gen.ReferenceIdeal.Read
import proofs.«108455_j7619271983254_2_alg».proof.Proof.Gen.Pre_finite_inputs
import proofs.«108455_j7619271983254_2_alg».proof.Proof.Dense
import proofs.«108455_j7619271983254_2_alg».proof.Proof.Run
import proofs.«108455_j7619271983254_2_alg».proof.Proof.Compose
import proofs.«108455_j7619271983254_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference is host operations only: its frame is its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at the three-layer perceptron of arguments that agree. -/
theorem algebraic : Cert.algebraic_KernelIdeal_ReferenceIdeal := by
  intro m ρ m' ρ' _ hagree
  refine ⟨fun c => Cert.Dense.mlp
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Compose.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v16_eq, Cert.ReferenceIdeal.RefValue.result_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
